-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128x128 .f32) (main_arg6 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S10000x128 : Shape := ⟨2, ![10000, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 59
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S100000x128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S1600000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S1600000x128, .f32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S1600000x1, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S10000x128_S10000x128 : S10000x128.ShapeCasts S10000x128
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .f32 = 32 ∨ (Rect.block (s := S100000x128) S10000x128.size (cc3_transform_1 i) (hinb3_1 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v27) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v41) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S10000x128.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S100000x128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S1600000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_cst : Ref sig .tc := ⟨.hbm, 44, rfl⟩
abbrev main_call1_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call2_cst : Ref sig .tc := ⟨.hbm, 64, rfl⟩
abbrev main_call2_v0 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.Spec.lean ====
import Idealize.ShloMosaic.Lib.ValueIdx
import Idealize.ShloMosaic.PureOps.Ideal.Laws
import Idealize.ShloMosaic.Lib.Pipeline.Value
import proofs.«114177_j90031104459405_1_alg».proof.Proof.LibPlainDot

/-!
# The dense stages of the network, index by index

A graph network of three layers over 100000 nodes with 128 features each: every layer multiplies the node
features by a 128 × 128 weight matrix, sends the product along the edges (a gather, a scaling by the edge weight and
a sum into the receiving node) and rectifies. The edge stage is the same host computation in both programs and is
never opened here. What is stated here is the rest: the product with a weight matrix as one function of the whole
feature array (`dense`, the entry `(p, q)` being `∑ k, X (p, k) · W (k, q)`) and the rectifier `relu`, and that
the host's `dot_general` and its `maximum` with a zero array are these functions.
-/

noncomputable section

namespace Cert.Gnn

open Idealize.ShloMosaic Idealize.ShloMosaic.ValueIdx
open scoped BigOperators

/-- The node features: 100000 rows of 128. -/
abbrev Nodes : Shape := ⟨2, ![100000, 128]⟩
/-- One tile of rows: 10000 rows of 128. -/
abbrev Tile : Shape := ⟨2, ![10000, 128]⟩
/-- A weight matrix. -/
abbrev Wts : Shape := ⟨2, ![128, 128]⟩

/-- The value of the zero word. -/
def zero : EReal := Ideal.ofBits .f32 0x00000000#32

/-- The rectifier, entry by entry: the larger of the entry and zero. -/
def relu {S : Shape} (X : S.Idx → EReal) : S.Idx → EReal := fun i => max (X i) zero

/-- Entry `(p, q)` of the product of the features with a weight matrix. -/
def denseAt (X : Nodes.Idx → EReal) (W : Wts.Idx → EReal) (p : Fin 100000) (q : Fin 128) : EReal :=
  ∑ k : Fin 128, X (ix2 p k) * W (ix2 k q)

/-- The product of the features with a weight matrix, as one function of the index. -/
def dense (X : Nodes.Idx → EReal) (W : Wts.Idx → EReal) : Nodes.Idx → EReal := fun i => denseAt X W (i 0) (i 1)

theorem dense_ix2 (X : Nodes.Idx → EReal) (W : Wts.Idx → EReal) (p : Fin 100000) (q : Fin 128) :
    dense X W (ix2 p q) = ∑ k : Fin 128, X (ix2 p k) * W (ix2 k q) := rfl

/-- A tile's sum is the whole product's entry: when the left block `x0` holds rows `10000 tv …` of `X` and the right
    block `x1` is `W`, the sum over `k` of `x0 (p, k) · x1 (k, q)` is `dense X W` at row `10000 tv + p`, column `q`. -/
theorem tile_sum_eq_dense (X : Nodes.Idx → EReal) (W : Wts.Idx → EReal) (x0 : Tile.Idx → EReal) (x1 : Wts.Idx → EReal) (tv : Nat)
    (h0 : ∀ (y : Tile.Idx) (k : Nodes.Idx), (k 0).val = 10000 * tv + (y 0).val → (k 1).val = (y 1).val → x0 y = X k)
    (h1 : ∀ y : Wts.Idx, x1 y = W y) (p : Fin 10000) (q : Fin 128) (i : Nodes.Idx)
    (hi0 : (i 0).val = 10000 * tv + p.val) (hi1 : (i 1).val = q.val) :
    ∑ k : Fin 128, x0 (ix2 p k) * x1 (ix2 k q) = dense X W i := by
  obtain ⟨r, s, rfl⟩ : ∃ (r : Fin 100000) (s : Fin 128), i = ix2 r s := ⟨i 0, i 1, eq_ix2 i⟩
  have hs : s = q := Fin.ext hi1
  subst hs
  rw [dense_ix2]
  refine Finset.sum_congr rfl fun k _ => ?_
  rw [h0 (ix2 p k) (ix2 r k) hi0 rfl, h1]

/-- The rectifier goes through a block read: if `x0` holds entries of `X`, `relu x0` holds those of `relu X`. -/
theorem relu_block {S T : Shape} (X : T.Idx → EReal) (x0 : S.Idx → EReal) (y : S.Idx) (k : T.Idx) (h : x0 y = X k) :
    relu x0 y = relu X k := by
  unfold relu; rw [h]

/-- The vector unit's maximum of a block with a splat zero, a same-shape cast in front, is `relu` of the block. -/
theorem relu_tile {S : Shape} (h : S.ShapeCasts S) (x0 : FVec Ideal S .f32) :
    maximumf (shapeCast S x0 h) (broadcast S (Scalar.ofBits (F := Ideal) .f32 0x00000000#32)) = relu x0 := by
  rw [shapeCast_self]; rfl

/-- The host's product with plain dimension numbers is `dense`. -/
theorem hostDot_eq (d : DotDims Nodes Wts Nodes) (h : LibPlainDot.Plain d) (X : FVec Ideal Nodes .f32) (W : FVec Ideal Wts .f32) :
    Host.dotGeneral d none X W = dense X W := by
  funext i
  obtain ⟨p, q, rfl⟩ : ∃ (p : Fin 100000) (q : Fin 128), i = ix2 p q := ⟨i 0, i 1, eq_ix2 i⟩
  exact LibPlainDot.dotGeneral_apply d h none .single X W p q

/-- The host's maximum with an array of zeros is `relu`. -/
theorem hostMax_eq {S : Shape} (hb : (⟨0, ![]⟩ : Shape).BroadcastsInDim S ![]) (X : FVec Ideal S .f32) :
    maximumf X (broadcastInDim S ![] hb (constant (F := Ideal) ⟨0, ![]⟩ .f32 0x00000000#32)) = relu X := rfl

end Cert.Gnn

end
-- ==== Proof.Region0.lean ====
import proofs.«114177_j90031104459405_1_alg».proof.Proof.Gen.KernelIdeal.Frame
import proofs.«114177_j90031104459405_1_alg».proof.Proof.Spec
import Idealize.ShloMosaic.Lib.Pipeline.Value

/-!
# The first product, tile by tile

The first kernel call multiplies the node features by the first weight matrix, ten tiles of 10000 rows one after
the other: at tile `t` it reads rows `10000 t … 10000 t + 9999` of the features and the whole weight matrix, and
writes the same rows of the result. Entry `(p, q)` of a tile's product is `∑ k, x (p, k) · w (k, q)`, which is the
entry of the whole product `dense` at row `10000 t + p`; the ten tiles cover every row, so the array the call leaves
is `dense` of the two arrays it found.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gnn

variable (V : (c : Dev nD) → (b : Ref sig .tc) → Buf (Elt Ideal) ((c : Thread nD τ).loc b))

theorem hz0 : (![0, 0] : Fin 2 → Nat) = fun _ => 0 := funext fun a => by fin_cases a <;> rfl

/-- The tile product's dimension numbers are the plain ones. -/
theorem plainTile0 : LibPlainDot.Plain dot_S10000x128_S128x128_S10000x128_1_0_0_1_n_n := ⟨rfl, rfl, rfl, rfl, rfl, rfl⟩

/-- An entry of the tile's product: the row of the left block against the column of the right one. -/
theorem pay0_apply (x0 : FVec Ideal S10000x128 .f32) (x1 : FVec Ideal S128x128 .f32) (p : Fin 10000) (q : Fin 128) :
    k0_pay1 (F := Ideal) x0 x1 (ix2 p q) = ∑ k : Fin 128, x0 (ix2 p k) * x1 (ix2 k q) := by
  unfold k0_pay1
  exact LibPlainDot.matmul_zero_apply _ plainTile0 none x0 x1 p q

/-- The feature window's block at tile `t` is rows `10000 t …` of the array. -/
theorem iblk0_0_apply (c : Dev nD) (t : Fin cfg0.N) (x : S10000x128.Idx) (k : S100000x128.Idx)
    (hk0 : (k 0).val = 10000 * t.val + (x 0).val) (hk1 : (k 1).val = (x 1).val) :
    (iblk0 V c 0 t : Vec Ideal S10000x128 .f32) x = (V c main_arg0 : S100000x128.Idx → EReal) k := by
  have hi : ∀ t : Fin cfg0.N, win0_0.index t 0 = t.val ∧ win0_0.index t 1 = 0 := (by decide +kernel : ∀ t : Fin grid0.N, _)
  unfold iblk0
  rw [View.read_apply]
  show V c main_arg0 _ = V c main_arg0 _
  congr 1
  funext a
  apply Fin.ext
  match a with
  | ⟨0, _⟩ => show win0_0.index t 0 * 10000 + 1 * (x 0).val = (k 0).val; rw [(hi t).1, hk0]; omega
  | ⟨1, _⟩ => show win0_0.index t 1 * 128 + 1 * (x 1).val = (k 1).val; rw [(hi t).2, hk1]; omega

/-- The weight window's block is the whole matrix at every tile. -/
theorem iblk0_1_apply (c : Dev nD) (t : Fin cfg0.N) (x : S128x128.Idx) :
    (iblk0 V c 1 t : Vec Ideal S128x128 .f32) x = (V c main_arg4 : S128x128.Idx → EReal) x := by
  have hi : ∀ t : Fin cfg0.N, win0_1.index t 0 = 0 ∧ win0_1.index t 1 = 0 := (by decide +kernel : ∀ t : Fin grid0.N, _)
  unfold iblk0
  rw [View.read_apply]
  show V c main_arg4 _ = V c main_arg4 _
  congr 1
  funext a
  apply Fin.ext
  match a with
  | ⟨0, _⟩ => show win0_1.index t 0 * 128 + 1 * (x 0).val = (x 0).val; rw [(hi t).1]; omega
  | ⟨1, _⟩ => show win0_1.index t 1 * 128 + 1 * (x 1).val = (x 1).val; rw [(hi t).2]; omega

/-- An entry of tile `t`'s product is the whole product's entry at row `10000 t + p`. -/
theorem tile0_apply (c : Dev nD) (t : Fin cfg0.N) (j : S10000x128.Idx) (i : S100000x128.Idx)
    (hi0 : (i 0).val = 10000 * t.val + (j 0).val) (hi1 : (i 1).val = (j 1).val) :
    k0_pay1 (F := Ideal) (iblk0 V c 0 t) (iblk0 V c 1 t) j = dense (V c main_arg0) (V c main_arg4) i := by
  obtain ⟨p, q, rfl⟩ : ∃ (p : Fin 10000) (q : Fin 128), j = ix2 p q := ⟨j 0, j 1, eq_ix2 j⟩
  exact (pay0_apply _ _ p q).trans
    (tile_sum_eq_dense _ _ _ _ t.val (iblk0_0_apply V c t) (iblk0_1_apply V c t) p q i hi0 hi1)

/-- The one store of the body fills the output block with the tile's product. -/
theorem out0_eq (x0 : Vec Ideal S10000x128 .f32) (x1 : Vec Ideal S128x128 .f32) : out0_2 (F := Ideal) x0 x1 = k0_pay1 x0 x1 := by
  unfold out0_2
  rw [View.canon_unit_zero hz0]
  simp only [View.ld_unit_zero (S := S10000x128) hz0, View.ld_unit_zero (S := S128x128) hz0]

/-- What tile `t` writes back is block `t` of the whole product. -/
theorem flushed0_eq (c : Dev nD) (t : Fin cfg0.N) :
    (dat0 V c).flushed 2 t = ((cfg0.win 2).blk t).view.read (Elt Ideal) (dense (V c main_arg0) (V c main_arg4)) := by
  have hi : ∀ t : Fin cfg0.N, win0_2.index t 0 = t.val ∧ win0_2.index t 1 = 0 := (by decide +kernel : ∀ t : Fin grid0.N, _)
  show (cfg0.win 2).cut (grid0.coords t) ((dat0 V c).after 2 t) = _
  rw [after0_2, out0_eq]
  funext j
  show k0_pay1 (F := Ideal) (iblk0 V c 0 t) (iblk0 V c 1 t) j = dense (V c main_arg0) (V c main_arg4) (((cfg0.win 2).blk t).view.emb j)
  refine tile0_apply V c t j _ ?_ ?_
  · show win0_2.index t 0 * 10000 + 1 * (j 0).val = 10000 * t.val + (j 0).val
    rw [(hi t).1]; omega
  · show win0_2.index t 1 * 128 + 1 * (j 1).val = (j 1).val
    rw [(hi t).2]; omega

/-- An index of the array is in tile `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- Row `r` is in the block of tile `r / 10000`. -/
theorem cover0 (i : S100000x128.Idx) : ∃ t : Fin cfg0.N, (cfg0.win 2).flush t = true ∧ i ∈ ((cfg0.win 2).blk t).view.set := by
  have hi : ∀ t : Fin cfg0.N, win0_2.index t 0 = t.val ∧ win0_2.index t 1 = 0 := (by decide +kernel : ∀ t : Fin grid0.N, _)
  have h0 : (i 0).val < 100000 := (i 0).isLt
  have h1 : (i 1).val < 128 := (i 1).isLt
  have hN : cfg0.N = 10 := N_0
  refine ⟨⟨(i 0).val / 10000, by rw [hN]; omega⟩, flush0_2 _, ?_⟩
  rw [mem_blk0]
  intro a
  match a with
  | ⟨0, _⟩ =>
    show win0_2.index _ 0 * 10000 ≤ (i 0).val ∧ (i 0).val < win0_2.index _ 0 * 10000 + 10000
    rw [(hi _).1]
    show (i 0).val / 10000 * 10000 ≤ (i 0).val ∧ (i 0).val < (i 0).val / 10000 * 10000 + 10000
    omega
  | ⟨1, _⟩ =>
    show win0_2.index _ 1 * 128 ≤ (i 1).val ∧ (i 1).val < win0_2.index _ 1 * 128 + 128
    rw [(hi _).2]; omega

/-- The array the first call leaves is the whole product of the arrays it found. -/
theorem final0 (c : Dev nD) : (dat0 V c).arrAt 2 cfg0.N = dense (V c main_arg0) (V c main_arg4) :=
  (dat0 V c).arrAt_eq_of_cover 2 _ (fun t _ => flushed0_eq V c t) cover0

end Cert.KernelIdeal.Hand

end
-- ==== Proof.Region1.lean ====
import proofs.«114177_j90031104459405_1_alg».proof.Proof.Gen.KernelIdeal.Frame
import proofs.«114177_j90031104459405_1_alg».proof.Proof.Spec
import Idealize.ShloMosaic.Lib.Pipeline.Value

/-!
# The second product, tile by tile

The second kernel call rectifies the features it finds and multiplies them by the second weight matrix, ten tiles
of 10000 rows one after the other. Entry `(p, q)` of a tile's result is `∑ k, max (x (p, k)) 0 · w (k, q)`: the entry
of `dense (relu X) W` at row `10000 t + p`. The ten tiles cover every row, so the array the call leaves is
`dense (relu X) W` of the two arrays it found.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gnn

variable (V : (c : Dev nD) → (b : Ref sig .tc) → Buf (Elt Ideal) ((c : Thread nD τ).loc b))

theorem hz1 : (![0, 0] : Fin 2 → Nat) = fun _ => 0 := funext fun a => by fin_cases a <;> rfl

/-- The tile product's dimension numbers are the plain ones. -/
theorem plainTile1 : LibPlainDot.Plain dot_S10000x128_S128x128_S10000x128_1_0_0_1_n_n := ⟨rfl, rfl, rfl, rfl, rfl, rfl⟩

/-- An entry of the tile's result: the rectified row of the left block against the column of the right one. -/
theorem pay1_apply (x0 : FVec Ideal S10000x128 .f32) (x1 : FVec Ideal S128x128 .f32) (p : Fin 10000) (q : Fin 128) :
    k1_pay1 (F := Ideal) x0 x1 (ix2 p q) = ∑ k : Fin 128, relu x0 (ix2 p k) * x1 (ix2 k q) := by
  unfold k1_pay1
  rw [relu_tile]
  exact LibPlainDot.matmul_zero_apply _ plainTile1 none (relu x0) x1 p q

/-- The feature window's block at tile `t` is rows `10000 t …` of the array. -/
theorem iblk1_0_apply (c : Dev nD) (t : Fin cfg1.N) (x : S10000x128.Idx) (k : S100000x128.Idx)
    (hk0 : (k 0).val = 10000 * t.val + (x 0).val) (hk1 : (k 1).val = (x 1).val) :
    (iblk1 V c 0 t : Vec Ideal S10000x128 .f32) x = (V c main_v13 : S100000x128.Idx → EReal) k := by
  have hi : ∀ t : Fin cfg1.N, win1_0.index t 0 = t.val ∧ win1_0.index t 1 = 0 := (by decide +kernel : ∀ t : Fin grid1.N, _)
  unfold iblk1
  rw [View.read_apply]
  show V c main_v13 _ = V c main_v13 _
  congr 1
  funext a
  apply Fin.ext
  match a with
  | ⟨0, _⟩ => show win1_0.index t 0 * 10000 + 1 * (x 0).val = (k 0).val; rw [(hi t).1, hk0]; omega
  | ⟨1, _⟩ => show win1_0.index t 1 * 128 + 1 * (x 1).val = (k 1).val; rw [(hi t).2, hk1]; omega

/-- The weight window's block is the whole matrix at every tile. -/
theorem iblk1_1_apply (c : Dev nD) (t : Fin cfg1.N) (x : S128x128.Idx) :
    (iblk1 V c 1 t : Vec Ideal S128x128 .f32) x = (V c main_arg5 : S128x128.Idx → EReal) x := by
  have hi : ∀ t : Fin cfg1.N, win1_1.index t 0 = 0 ∧ win1_1.index t 1 = 0 := (by decide +kernel : ∀ t : Fin grid1.N, _)
  unfold iblk1
  rw [View.read_apply]
  show V c main_arg5 _ = V c main_arg5 _
  congr 1
  funext a
  apply Fin.ext
  match a with
  | ⟨0, _⟩ => show win1_1.index t 0 * 128 + 1 * (x 0).val = (x 0).val; rw [(hi t).1]; omega
  | ⟨1, _⟩ => show win1_1.index t 1 * 128 + 1 * (x 1).val = (x 1).val; rw [(hi t).2]; omega

/-- An entry of tile `t`'s result is the entry of the rectified features' product at row `10000 t + p`. -/
theorem tile1_apply (c : Dev nD) (t : Fin cfg1.N) (j : S10000x128.Idx) (i : S100000x128.Idx)
    (hi0 : (i 0).val = 10000 * t.val + (j 0).val) (hi1 : (i 1).val = (j 1).val) :
    k1_pay1 (F := Ideal) (iblk1 V c 0 t) (iblk1 V c 1 t) j = dense (relu (V c main_v13 : S100000x128.Idx → EReal)) (V c main_arg5) i := by
  obtain ⟨p, q, rfl⟩ : ∃ (p : Fin 10000) (q : Fin 128), j = ix2 p q := ⟨j 0, j 1, eq_ix2 j⟩
  exact (pay1_apply _ _ p q).trans
    (tile_sum_eq_dense (relu (V c main_v13 : S100000x128.Idx → EReal)) (V c main_arg5) (relu (iblk1 V c 0 t : Vec Ideal S10000x128 .f32)) _ t.val
      (fun y k h0 h1 => relu_block _ _ y k (iblk1_0_apply V c t y k h0 h1)) (iblk1_1_apply V c t) p q i hi0 hi1)

/-- The one store of the body fills the output block with the tile's result. -/
theorem out1_eq (x0 : Vec Ideal S10000x128 .f32) (x1 : Vec Ideal S128x128 .f32) : out1_2 (F := Ideal) x0 x1 = k1_pay1 x0 x1 := by
  unfold out1_2
  rw [View.canon_unit_zero hz1]
  simp only [View.ld_unit_zero (S := S10000x128) hz1, View.ld_unit_zero (S := S128x128) hz1]

/-- What tile `t` writes back is block `t` of that product. -/
theorem flushed1_eq (c : Dev nD) (t : Fin cfg1.N) :
    (dat1 V c).flushed 2 t = ((cfg1.win 2).blk t).view.read (Elt Ideal) (dense (relu (V c main_v13 : S100000x128.Idx → EReal)) (V c main_arg5)) := by
  have hi : ∀ t : Fin cfg1.N, win1_2.index t 0 = t.val ∧ win1_2.index t 1 = 0 := (by decide +kernel : ∀ t : Fin grid1.N, _)
  show (cfg1.win 2).cut (grid1.coords t) ((dat1 V c).after 2 t) = _
  rw [after1_2, out1_eq]
  funext j
  show k1_pay1 (F := Ideal) (iblk1 V c 0 t) (iblk1 V c 1 t) j = dense (relu (V c main_v13 : S100000x128.Idx → EReal)) (V c main_arg5) (((cfg1.win 2).blk t).view.emb j)
  refine tile1_apply V c t j _ ?_ ?_
  · show win1_2.index t 0 * 10000 + 1 * (j 0).val = 10000 * t.val + (j 0).val
    rw [(hi t).1]; omega
  · show win1_2.index t 1 * 128 + 1 * (j 1).val = (j 1).val
    rw [(hi t).2]; omega

/-- An index of the array is in tile `t`'s block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v14).slice (win1_2.rect t)).set ↔ _
  rw [View.set_slice_whole, Rect.mem_set_unit]
  exact Iff.rfl

/-- Row `r` is in the block of tile `r / 10000`. -/
theorem cover1 (i : S100000x128.Idx) : ∃ t : Fin cfg1.N, (cfg1.win 2).flush t = true ∧ i ∈ ((cfg1.win 2).blk t).view.set := by
  have hi : ∀ t : Fin cfg1.N, win1_2.index t 0 = t.val ∧ win1_2.index t 1 = 0 := (by decide +kernel : ∀ t : Fin grid1.N, _)
  have h0 : (i 0).val < 100000 := (i 0).isLt
  have h1 : (i 1).val < 128 := (i 1).isLt
  have hN : cfg1.N = 10 := N_1
  refine ⟨⟨(i 0).val / 10000, by rw [hN]; omega⟩, flush1_2 _, ?_⟩
  rw [mem_blk1]
  intro a
  match a with
  | ⟨0, _⟩ =>
    show win1_2.index _ 0 * 10000 ≤ (i 0).val ∧ (i 0).val < win1_2.index _ 0 * 10000 + 10000
    rw [(hi _).1]
    show (i 0).val / 10000 * 10000 ≤ (i 0).val ∧ (i 0).val < (i 0).val / 10000 * 10000 + 10000
    omega
  | ⟨1, _⟩ =>
    show win1_2.index _ 1 * 128 ≤ (i 1).val ∧ (i 1).val < win1_2.index _ 1 * 128 + 128
    rw [(hi _).2]; omega

/-- The array the second call leaves is the product of the rectified features it found with the weights it found. -/
theorem final1 (c : Dev nD) : (dat1 V c).arrAt 2 cfg1.N = dense (relu (V c main_v13 : S100000x128.Idx → EReal)) (V c main_arg5) :=
  (dat1 V c).arrAt_eq_of_cover 2 _ (fun t _ => flushed1_eq V c t) cover1

end Cert.KernelIdeal.Hand

end
-- ==== Proof.Region2.lean ====
import proofs.«114177_j90031104459405_1_alg».proof.Proof.Gen.KernelIdeal.Frame
import proofs.«114177_j90031104459405_1_alg».proof.Proof.Spec
import Idealize.ShloMosaic.Lib.Pipeline.Value

/-!
# The third product, tile by tile

The third kernel call rectifies the features it finds and multiplies them by the third weight matrix, ten tiles
of 10000 rows one after the other. Entry `(p, q)` of a tile's result is `∑ k, max (x (p, k)) 0 · w (k, q)`: the entry
of `dense (relu X) W` at row `10000 t + p`. The ten tiles cover every row, so the array the call leaves is
`dense (relu X) W` of the two arrays it found.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gnn

variable (V : (c : Dev nD) → (b : Ref sig .tc) → Buf (Elt Ideal) ((c : Thread nD τ).loc b))

theorem hz2 : (![0, 0] : Fin 2 → Nat) = fun _ => 0 := funext fun a => by fin_cases a <;> rfl

/-- The tile product's dimension numbers are the plain ones. -/
theorem plainTile2 : LibPlainDot.Plain dot_S10000x128_S128x128_S10000x128_1_0_0_1_n_n := ⟨rfl, rfl, rfl, rfl, rfl, rfl⟩

/-- An entry of the tile's result: the rectified row of the left block against the column of the right one. -/
theorem pay2_apply (x0 : FVec Ideal S10000x128 .f32) (x1 : FVec Ideal S128x128 .f32) (p : Fin 10000) (q : Fin 128) :
    k2_pay1 (F := Ideal) x0 x1 (ix2 p q) = ∑ k : Fin 128, relu x0 (ix2 p k) * x1 (ix2 k q) := by
  unfold k2_pay1
  rw [relu_tile]
  exact LibPlainDot.matmul_zero_apply _ plainTile2 none (relu x0) x1 p q

/-- The feature window's block at tile `t` is rows `10000 t …` of the array. -/
theorem iblk2_0_apply (c : Dev nD) (t : Fin cfg2.N) (x : S10000x128.Idx) (k : S100000x128.Idx)
    (hk0 : (k 0).val = 10000 * t.val + (x 0).val) (hk1 : (k 1).val = (x 1).val) :
    (iblk2 V c 0 t : Vec Ideal S10000x128 .f32) x = (V c main_v27 : S100000x128.Idx → EReal) k := by
  have hi : ∀ t : Fin cfg2.N, win2_0.index t 0 = t.val ∧ win2_0.index t 1 = 0 := (by decide +kernel : ∀ t : Fin grid2.N, _)
  unfold iblk2
  rw [View.read_apply]
  show V c main_v27 _ = V c main_v27 _
  congr 1
  funext a
  apply Fin.ext
  match a with
  | ⟨0, _⟩ => show win2_0.index t 0 * 10000 + 1 * (x 0).val = (k 0).val; rw [(hi t).1, hk0]; omega
  | ⟨1, _⟩ => show win2_0.index t 1 * 128 + 1 * (x 1).val = (k 1).val; rw [(hi t).2, hk1]; omega

/-- The weight window's block is the whole matrix at every tile. -/
theorem iblk2_1_apply (c : Dev nD) (t : Fin cfg2.N) (x : S128x128.Idx) :
    (iblk2 V c 1 t : Vec Ideal S128x128 .f32) x = (V c main_arg6 : S128x128.Idx → EReal) x := by
  have hi : ∀ t : Fin cfg2.N, win2_1.index t 0 = 0 ∧ win2_1.index t 1 = 0 := (by decide +kernel : ∀ t : Fin grid2.N, _)
  unfold iblk2
  rw [View.read_apply]
  show V c main_arg6 _ = V c main_arg6 _
  congr 1
  funext a
  apply Fin.ext
  match a with
  | ⟨0, _⟩ => show win2_1.index t 0 * 128 + 1 * (x 0).val = (x 0).val; rw [(hi t).1]; omega
  | ⟨1, _⟩ => show win2_1.index t 1 * 128 + 1 * (x 1).val = (x 1).val; rw [(hi t).2]; omega

/-- An entry of tile `t`'s result is the entry of the rectified features' product at row `10000 t + p`. -/
theorem tile2_apply (c : Dev nD) (t : Fin cfg2.N) (j : S10000x128.Idx) (i : S100000x128.Idx)
    (hi0 : (i 0).val = 10000 * t.val + (j 0).val) (hi1 : (i 1).val = (j 1).val) :
    k2_pay1 (F := Ideal) (iblk2 V c 0 t) (iblk2 V c 1 t) j = dense (relu (V c main_v27 : S100000x128.Idx → EReal)) (V c main_arg6) i := by
  obtain ⟨p, q, rfl⟩ : ∃ (p : Fin 10000) (q : Fin 128), j = ix2 p q := ⟨j 0, j 1, eq_ix2 j⟩
  exact (pay2_apply _ _ p q).trans
    (tile_sum_eq_dense (relu (V c main_v27 : S100000x128.Idx → EReal)) (V c main_arg6) (relu (iblk2 V c 0 t : Vec Ideal S10000x128 .f32)) _ t.val
      (fun y k h0 h1 => relu_block _ _ y k (iblk2_0_apply V c t y k h0 h1)) (iblk2_1_apply V c t) p q i hi0 hi1)

/-- The one store of the body fills the output block with the tile's result. -/
theorem out2_eq (x0 : Vec Ideal S10000x128 .f32) (x1 : Vec Ideal S128x128 .f32) : out2_2 (F := Ideal) x0 x1 = k2_pay1 x0 x1 := by
  unfold out2_2
  rw [View.canon_unit_zero hz2]
  simp only [View.ld_unit_zero (S := S10000x128) hz2, View.ld_unit_zero (S := S128x128) hz2]

/-- What tile `t` writes back is block `t` of that product. -/
theorem flushed2_eq (c : Dev nD) (t : Fin cfg2.N) :
    (dat2 V c).flushed 2 t = ((cfg2.win 2).blk t).view.read (Elt Ideal) (dense (relu (V c main_v27 : S100000x128.Idx → EReal)) (V c main_arg6)) := by
  have hi : ∀ t : Fin cfg2.N, win2_2.index t 0 = t.val ∧ win2_2.index t 1 = 0 := (by decide +kernel : ∀ t : Fin grid2.N, _)
  show (cfg2.win 2).cut (grid2.coords t) ((dat2 V c).after 2 t) = _
  rw [after2_2, out2_eq]
  funext j
  show k2_pay1 (F := Ideal) (iblk2 V c 0 t) (iblk2 V c 1 t) j = dense (relu (V c main_v27 : S100000x128.Idx → EReal)) (V c main_arg6) (((cfg2.win 2).blk t).view.emb j)
  refine tile2_apply V c t j _ ?_ ?_
  · show win2_2.index t 0 * 10000 + 1 * (j 0).val = 10000 * t.val + (j 0).val
    rw [(hi t).1]; omega
  · show win2_2.index t 1 * 128 + 1 * (j 1).val = (j 1).val
    rw [(hi t).2]; omega

/-- An index of the array is in tile `t`'s block iff each coordinate is in the block's range on its axis. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v28).slice (win2_2.rect t)).set ↔ _
  rw [View.set_slice_whole, Rect.mem_set_unit]
  exact Iff.rfl

/-- Row `r` is in the block of tile `r / 10000`. -/
theorem cover2 (i : S100000x128.Idx) : ∃ t : Fin cfg2.N, (cfg2.win 2).flush t = true ∧ i ∈ ((cfg2.win 2).blk t).view.set := by
  have hi : ∀ t : Fin cfg2.N, win2_2.index t 0 = t.val ∧ win2_2.index t 1 = 0 := (by decide +kernel : ∀ t : Fin grid2.N, _)
  have h0 : (i 0).val < 100000 := (i 0).isLt
  have h1 : (i 1).val < 128 := (i 1).isLt
  have hN : cfg2.N = 10 := N_2
  refine ⟨⟨(i 0).val / 10000, by rw [hN]; omega⟩, flush2_2 _, ?_⟩
  rw [mem_blk2]
  intro a
  match a with
  | ⟨0, _⟩ =>
    show win2_2.index _ 0 * 10000 ≤ (i 0).val ∧ (i 0).val < win2_2.index _ 0 * 10000 + 10000
    rw [(hi _).1]
    show (i 0).val / 10000 * 10000 ≤ (i 0).val ∧ (i 0).val < (i 0).val / 10000 * 10000 + 10000
    omega
  | ⟨1, _⟩ =>
    show win2_2.index _ 1 * 128 ≤ (i 1).val ∧ (i 1).val < win2_2.index _ 1 * 128 + 128
    rw [(hi _).2]; omega

/-- The array the third call leaves is the product of the rectified features it found with the weights it found. -/
theorem final2 (c : Dev nD) : (dat2 V c).arrAt 2 cfg2.N = dense (relu (V c main_v27 : S100000x128.Idx → EReal)) (V c main_arg6) :=
  (dat2 V c).arrAt_eq_of_cover 2 _ (fun t _ => flushed2_eq V c t) cover2

end Cert.KernelIdeal.Hand

end
-- ==== Proof.Region3.lean ====
import proofs.«114177_j90031104459405_1_alg».proof.Proof.Gen.KernelIdeal.Frame
import proofs.«114177_j90031104459405_1_alg».proof.Proof.Spec
import Idealize.ShloMosaic.Lib.Pipeline.Value

/-!
# The last rectifier, tile by tile

The fourth kernel call rectifies the array it finds, ten tiles of 10000 rows one after the other: at tile `t` it
reads rows `10000 t … 10000 t + 9999` and writes the larger of each entry and zero to the same rows of the result.
The ten tiles cover every row, so the array the call leaves is `relu` of the array it found.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gnn

variable (V : (c : Dev nD) → (b : Ref sig .tc) → Buf (Elt Ideal) ((c : Thread nD τ).loc b))

theorem hz3 : (![0, 0] : Fin 2 → Nat) = fun _ => 0 := funext fun a => by fin_cases a <;> rfl

/-- The body's value is the rectified block. -/
theorem pay3_eq (x0 : FVec Ideal S10000x128 .f32) : k3_pay1 (F := Ideal) x0 = relu x0 := by
  unfold k3_pay1
  dsimp only
  rw [relu_tile]

/-- The input window's block at tile `t` is rows `10000 t …` of the array. -/
theorem iblk3_0_apply (c : Dev nD) (t : Fin cfg3.N) (x : S10000x128.Idx) (k : S100000x128.Idx)
    (hk0 : (k 0).val = 10000 * t.val + (x 0).val) (hk1 : (k 1).val = (x 1).val) :
    (iblk3 V c 0 t : Vec Ideal S10000x128 .f32) x = (V c main_v41 : S100000x128.Idx → EReal) k := by
  have hi : ∀ t : Fin cfg3.N, win3_0.index t 0 = t.val ∧ win3_0.index t 1 = 0 := (by decide +kernel : ∀ t : Fin grid3.N, _)
  unfold iblk3
  rw [View.read_apply]
  show V c main_v41 _ = V c main_v41 _
  congr 1
  funext a
  apply Fin.ext
  match a with
  | ⟨0, _⟩ => show win3_0.index t 0 * 10000 + 1 * (x 0).val = (k 0).val; rw [(hi t).1, hk0]; omega
  | ⟨1, _⟩ => show win3_0.index t 1 * 128 + 1 * (x 1).val = (k 1).val; rw [(hi t).2, hk1]; omega

/-- An entry of tile `t`'s result is the rectified array's entry at row `10000 t + p`. -/
theorem tile3_apply (c : Dev nD) (t : Fin cfg3.N) (j : S10000x128.Idx) (i : S100000x128.Idx)
    (hi0 : (i 0).val = 10000 * t.val + (j 0).val) (hi1 : (i 1).val = (j 1).val) :
    k3_pay1 (F := Ideal) (iblk3 V c 0 t) j = relu (V c main_v41 : S100000x128.Idx → EReal) i :=
  (congrFun (pay3_eq _) j).trans (relu_block _ _ j i (iblk3_0_apply V c t j i hi0 hi1))

/-- The one store of the body fills the output block with the rectified block. -/
theorem out3_eq (x0 : Vec Ideal S10000x128 .f32) : out3_1 (F := Ideal) x0 = k3_pay1 x0 := by
  unfold out3_1
  rw [View.canon_unit_zero hz3]
  simp only [View.ld_unit_zero (S := S10000x128) hz3]

/-- What tile `t` writes back is block `t` of the rectified array. -/
theorem flushed3_eq (c : Dev nD) (t : Fin cfg3.N) :
    (dat3 V c).flushed 1 t = ((cfg3.win 1).blk t).view.read (Elt Ideal) (relu (V c main_v41 : S100000x128.Idx → EReal)) := by
  have hi : ∀ t : Fin cfg3.N, win3_1.index t 0 = t.val ∧ win3_1.index t 1 = 0 := (by decide +kernel : ∀ t : Fin grid3.N, _)
  show (cfg3.win 1).cut (grid3.coords t) ((dat3 V c).after 1 t) = _
  rw [after3_1, out3_eq]
  funext j
  show k3_pay1 (F := Ideal) (iblk3 V c 0 t) j = relu (V c main_v41 : S100000x128.Idx → EReal) (((cfg3.win 1).blk t).view.emb j)
  refine tile3_apply V c t j _ ?_ ?_
  · show win3_1.index t 0 * 10000 + 1 * (j 0).val = 10000 * t.val + (j 0).val
    rw [(hi t).1]; omega
  · show win3_1.index t 1 * 128 + 1 * (j 1).val = (j 1).val
    rw [(hi t).2]; omega

/-- An index of the array is in tile `t`'s block iff each coordinate is in the block's range on its axis. -/
theorem mem_blk3 (t : Fin cfg3.N) (i : S100000x128.Idx) :
    i ∈ ((cfg3.win 1).blk t).view.set ↔ ∀ a : Fin 2, win3_1.index t a * S10000x128.size a ≤ (i a).val ∧ (i a).val < win3_1.index t a * S10000x128.size a + S10000x128.size a := by
  show i ∈ ((View.whole main_v42).slice (win3_1.rect t)).set ↔ _
  rw [View.set_slice_whole, Rect.mem_set_unit]
  exact Iff.rfl

/-- Row `r` is in the block of tile `r / 10000`. -/
theorem cover3 (i : S100000x128.Idx) : ∃ t : Fin cfg3.N, (cfg3.win 1).flush t = true ∧ i ∈ ((cfg3.win 1).blk t).view.set := by
  have hi : ∀ t : Fin cfg3.N, win3_1.index t 0 = t.val ∧ win3_1.index t 1 = 0 := (by decide +kernel : ∀ t : Fin grid3.N, _)
  have h0 : (i 0).val < 100000 := (i 0).isLt
  have h1 : (i 1).val < 128 := (i 1).isLt
  have hN : cfg3.N = 10 := N_3
  refine ⟨⟨(i 0).val / 10000, by rw [hN]; omega⟩, flush3_1 _, ?_⟩
  rw [mem_blk3]
  intro a
  match a with
  | ⟨0, _⟩ =>
    show win3_1.index _ 0 * 10000 ≤ (i 0).val ∧ (i 0).val < win3_1.index _ 0 * 10000 + 10000
    rw [(hi _).1]
    show (i 0).val / 10000 * 10000 ≤ (i 0).val ∧ (i 0).val < (i 0).val / 10000 * 10000 + 10000
    omega
  | ⟨1, _⟩ =>
    show win3_1.index _ 1 * 128 ≤ (i 1).val ∧ (i 1).val < win3_1.index _ 1 * 128 + 128
    rw [(hi _).2]; omega

/-- The array the last call leaves is the rectified array it found. -/
theorem final3 (c : Dev nD) : (dat3 V c).arrAt 1 cfg3.N = relu (V c main_v41 : S100000x128.Idx → EReal) :=
  (dat3 V c).arrAt_eq_of_cover 1 _ (fun t _ => flushed3_eq V c t) cover3

end Cert.KernelIdeal.Hand

end
-- ==== Proof.Edges.lean ====
import proofs.«114177_j90031104459405_1_alg».proof.Proof.Gen.KernelIdeal.Launch
import Idealize.ShloMosaic.PureOps.Ideal
import Idealize.ShloMosaic.Lib.StableHlo.Run

/-!
# The edge stage, and the host stretches between the calls

Between two kernel calls the program sends the node features along the edges: it gathers, for every edge, the row of
the edge's source node (a negative source index counted from the end), scales it by the edge's weight, and adds it
into the row of the edge's destination node, starting from zeros. The same sixteen host operations do this three
times, and the reference does the same; the stage is named here once as one function `spmm` of the edge arrays and
the features and is never opened. Each host stretch writes `spmm` of what it finds into its last buffer and leaves
the argument buffers alone.
-/

noncomputable section

namespace Cert.KernelIdeal.Hand

open Cert.KernelIdeal Cert.KernelIdeal.Gen Idealize.ShloMosaic Idealize.ShloMosaic.TcCoe Idealize.SL.Sem Idealize.ShloMosaic.StableHlo

/-- The edge stage: the features `Y` gathered along the edges' source indices `ec`, scaled by the edge weights
    `ew`, and summed into the rows the destination indices `er` name. -/
def spmm (er ec : (⟨S1600000, .i32⟩ : BufTy).Contents (Elt Ideal)) (ew : (⟨S1600000, .f32⟩ : BufTy).Contents (Elt Ideal)) (Y : (⟨S100000x128, .f32⟩ : BufTy).Contents (Elt Ideal)) :
    (⟨S100000x128, .f32⟩ : BufTy).Contents (Elt Ideal) :=
  Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 er) (mulf (broadcastInDim S1600000x128 ![0, 1] bcast_S1600000x1_S1600000x128_0_1 (broadcastInDim S1600000x1 ![0] bcast_S1600000_S1600000x1_0 ew)) (Host.gather gather_S100000x128_S1600000x1_S1600000x128_1_0_n_n_0_1_1128 Y (broadcastInDim S1600000x1 ![0] bcast_S1600000_S1600000x1_0 (select (cmpi .slt ec (broadcastInDim S1600000 ![] bcast_S_S1600000 (constantI S_ 32 0#32))) (addi ec (broadcastInDim S1600000 ![] bcast_S_S1600000 (constantI S_ 32 100000#32))) ec))))

variable (W : Valuation τ sig (Elt Ideal))

/-- The first stretch leaves the edge stage of the first product in its last buffer. -/
theorem host1_out : StableHlo.after (hostOps1 (F := Ideal)) W (Proc.devRef .tc main_v13)
    = spmm (W (Proc.devRef .tc main_arg1)) (W (Proc.devRef .tc main_arg2)) (W (Proc.devRef .tc main_arg3)) (W (Proc.devRef .tc main_v0)) := by
  after_results_simp; rfl

set_option maxHeartbeats 1000000 in
/-- The second stretch, of the second product. -/
theorem host2_out : StableHlo.after (hostOps2 (F := Ideal)) W (Proc.devRef .tc main_v27)
    = spmm (W (Proc.devRef .tc main_arg1)) (W (Proc.devRef .tc main_arg2)) (W (Proc.devRef .tc main_arg3)) (W (Proc.devRef .tc main_v14)) := by
  after_results_simp; rfl

set_option maxHeartbeats 1000000 in
/-- The third stretch, of the third product. -/
theorem host3_out : StableHlo.after (hostOps3 (F := Ideal)) W (Proc.devRef .tc main_v41)
    = spmm (W (Proc.devRef .tc main_arg1)) (W (Proc.devRef .tc main_arg2)) (W (Proc.devRef .tc main_arg3)) (W (Proc.devRef .tc main_v28)) := by
  after_results_simp; rfl

/-- The first stretch writes none of the edge arrays and neither later weight matrix. -/
theorem host1_keep : StableHlo.after (hostOps1 (F := Ideal)) W (Proc.devRef .tc main_arg1) = W (Proc.devRef .tc main_arg1)
    ∧ StableHlo.after (hostOps1 (F := Ideal)) W (Proc.devRef .tc main_arg2) = W (Proc.devRef .tc main_arg2)
    ∧ StableHlo.after (hostOps1 (F := Ideal)) W (Proc.devRef .tc main_arg3) = W (Proc.devRef .tc main_arg3)
    ∧ StableHlo.after (hostOps1 (F := Ideal)) W (Proc.devRef .tc main_arg5) = W (Proc.devRef .tc main_arg5)
    ∧ StableHlo.after (hostOps1 (F := Ideal)) W (Proc.devRef .tc main_arg6) = W (Proc.devRef .tc main_arg6) := by
  refine ⟨?_, ?_, ?_, ?_, ?_⟩ <;> after_results

/-- The second stretch writes none of the edge arrays nor the last weight matrix. -/
theorem host2_keep : StableHlo.after (hostOps2 (F := Ideal)) W (Proc.devRef .tc main_arg1) = W (Proc.devRef .tc main_arg1)
    ∧ StableHlo.after (hostOps2 (F := Ideal)) W (Proc.devRef .tc main_arg2) = W (Proc.devRef .tc main_arg2)
    ∧ StableHlo.after (hostOps2 (F := Ideal)) W (Proc.devRef .tc main_arg3) = W (Proc.devRef .tc main_arg3)
    ∧ StableHlo.after (hostOps2 (F := Ideal)) W (Proc.devRef .tc main_arg6) = W (Proc.devRef .tc main_arg6) := by
  refine ⟨?_, ?_, ?_, ?_⟩ <;> after_results

end Cert.KernelIdeal.Hand

end
-- ==== Proof.KernelRun.lean ====
import proofs.«114177_j90031104459405_1_alg».proof.Proof.Gen.KernelIdeal.Frame

/-!
# The run of the four calls, with the result array named

The program is four kernel calls with stretches of host operations between them. Its run from the launch memory ends
with every buffer of the TensorCore at the contents the fold over the seven segments leaves (`Gen.W7`); read at the
seven argument buffers that is the frame; read at the result buffer as well it names what the last call wrote, which
the value lemmas then open call by call.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    segment boundary's contents and the arguments as launched. -/
theorem run_out : θ_run defs (onTc (τ := τ) (main (F := F))) ⟨m, fun _ => 0, ρ⟩ (fun r => ∀ c : Dev nD,
      r.2.mem ((c.tc : Thread nD τ).loc main_v42) = W7 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v42 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Hand

end
-- ==== Proof.KernelValue.lean ====
import proofs.«114177_j90031104459405_1_alg».proof.Proof.Gen.KernelIdeal.Frame
import proofs.«114177_j90031104459405_1_alg».proof.Proof.Region0
import proofs.«114177_j90031104459405_1_alg».proof.Proof.Region1
import proofs.«114177_j90031104459405_1_alg».proof.Proof.Region2
import proofs.«114177_j90031104459405_1_alg».proof.Proof.Region3
import proofs.«114177_j90031104459405_1_alg».proof.Proof.Edges
import proofs.«114177_j90031104459405_1_alg».proof.Proof.KernelRun

/-!
# What the four calls and the three host stretches compute

Read from the launch memory forward: the first call leaves `dense x w1`; the first host stretch sends it along the
edges (`spmm`); the second call leaves `dense (relu ·) w2` of that; the second stretch sends it along the edges; the
third call and the third stretch do the same with `w3`; the last call rectifies. No segment writes an argument buffer
a later segment reads, so every read of the edge arrays and of the weights is a read of the launch memory. The
result buffer therefore ends at `relu (spmm (dense (relu (spmm (dense (relu (spmm (dense x w1))) w2))) w3))`.
-/

set_option maxRecDepth 16384

noncomputable section

open Idealize.ShloMosaic Idealize.ShloMosaic.TcCoe Idealize.SL.Sem

namespace Cert.KernelIdeal.Hand

open Cert.KernelIdeal Cert.KernelIdeal.Gen Cert.Gnn

variable (m : (ℓ : Loc nD τ sig) → Buf (Elt Ideal) ℓ) (ρ : Dev nD → PrngReg) (c : Dev nD)

/-- The edge stage is a function of its four operands. -/
theorem spmm_congr {er er' ec ec' : (⟨S1600000, .i32⟩ : BufTy).Contents (Elt Ideal)} {ew ew' : (⟨S1600000, .f32⟩ : BufTy).Contents (Elt Ideal)}
    {Y Y' : (⟨S100000x128, .f32⟩ : BufTy).Contents (Elt Ideal)} (h1 : er = er') (h2 : ec = ec') (h3 : ew = ew') (h4 : Y = Y') :
    spmm er ec ew Y = spmm er' ec' ew' Y' := by rw [h1, h2, h3, h4]

/-- The features after the first layer's edge stage, from the launch memory. -/
abbrev s1 : (⟨S100000x128, .f32⟩ : BufTy).Contents (Elt Ideal) :=
  spmm (m ((c : Thread nD τ).loc main_arg1)) (m ((c : Thread nD τ).loc main_arg2)) (m ((c : Thread nD τ).loc main_arg3)) (dense (m ((c : Thread nD τ).loc main_arg0)) (m ((c : Thread nD τ).loc main_arg4)))
/-- After the second layer's. -/
abbrev s2 : (⟨S100000x128, .f32⟩ : BufTy).Contents (Elt Ideal) :=
  spmm (m ((c : Thread nD τ).loc main_arg1)) (m ((c : Thread nD τ).loc main_arg2)) (m ((c : Thread nD τ).loc main_arg3)) (dense (relu (s1 m c : S100000x128.Idx → EReal)) (m ((c : Thread nD τ).loc main_arg5)))
/-- After the third layer's. -/
abbrev s3 : (⟨S100000x128, .f32⟩ : BufTy).Contents (Elt Ideal) :=
  spmm (m ((c : Thread nD τ).loc main_arg1)) (m ((c : Thread nD τ).loc main_arg2)) (m ((c : Thread nD τ).loc main_arg3)) (dense (relu (s2 m c : S100000x128.Idx → EReal)) (m ((c : Thread nD τ).loc main_arg6)))
/-- The network's result. -/
abbrev result : S100000x128.Idx → EReal := relu (s3 m c : S100000x128.Idx → EReal)

/-! ## After the first call -/

theorem kept1 : W1 m ρ c (Proc.devRef .tc main_arg1) = m ((c : Thread nD τ).loc main_arg1)
    ∧ W1 m ρ c (Proc.devRef .tc main_arg2) = m ((c : Thread nD τ).loc main_arg2)
    ∧ W1 m ρ c (Proc.devRef .tc main_arg3) = m ((c : Thread nD τ).loc main_arg3)
    ∧ W1 m ρ c (Proc.devRef .tc main_arg5) = m ((c : Thread nD τ).loc main_arg5)
    ∧ W1 m ρ c (Proc.devRef .tc main_arg6) = m ((c : Thread nD τ).loc main_arg6) :=
  ⟨W1_of_ne m ρ c main_arg1 (by decide), W1_of_ne m ρ c main_arg2 (by decide), W1_of_ne m ρ c main_arg3 (by decide),
    W1_of_ne m ρ c main_arg5 (by decide), W1_of_ne m ρ c main_arg6 (by decide)⟩

theorem v0_eq : W1 m ρ c (Proc.devRef .tc main_v0) = dense (m ((c : Thread nD τ).loc main_arg0)) (m ((c : Thread nD τ).loc main_arg4)) :=
  (W1_arr m ρ c 2).trans (final0 (V0 m ρ) c)

/-! ## After the first host stretch -/

theorem kept2 : W2 m ρ c (Proc.devRef .tc main_arg1) = m ((c : Thread nD τ).loc main_arg1)
    ∧ W2 m ρ c (Proc.devRef .tc main_arg2) = m ((c : Thread nD τ).loc main_arg2)
    ∧ W2 m ρ c (Proc.devRef .tc main_arg3) = m ((c : Thread nD τ).loc main_arg3)
    ∧ W2 m ρ c (Proc.devRef .tc main_arg5) = m ((c : Thread nD τ).loc main_arg5)
    ∧ W2 m ρ c (Proc.devRef .tc main_arg6) = m ((c : Thread nD τ).loc main_arg6) := by
  obtain ⟨h1, h2, h3, h5, h6⟩ := kept1 m ρ c
  obtain ⟨k1, k2, k3, k5, k6⟩ := host1_keep (W1 m ρ c)
  exact ⟨k1.trans h1, k2.trans h2, k3.trans h3, k5.trans h5, k6.trans h6⟩

theorem v13_eq : W2 m ρ c (Proc.devRef .tc main_v13) = s1 m c := by
  obtain ⟨h1, h2, h3, -, -⟩ := kept1 m ρ c
  exact (host1_out (W1 m ρ c)).trans (spmm_congr h1 h2 h3 (v0_eq m ρ c))

/-! ## After the second call -/

theorem kept3 : W3 m ρ c (Proc.devRef .tc main_arg1) = m ((c : Thread nD τ).loc main_arg1)
    ∧ W3 m ρ c (Proc.devRef .tc main_arg2) = m ((c : Thread nD τ).loc main_arg2)
    ∧ W3 m ρ c (Proc.devRef .tc main_arg3) = m ((c : Thread nD τ).loc main_arg3)
    ∧ W3 m ρ c (Proc.devRef .tc main_arg6) = m ((c : Thread nD τ).loc main_arg6) := by
  obtain ⟨h1, h2, h3, -, h6⟩ := kept2 m ρ c
  exact ⟨(W3_of_ne m ρ c main_arg1 (by decide)).trans h1, (W3_of_ne m ρ c main_arg2 (by decide)).trans h2,
    (W3_of_ne m ρ c main_arg3 (by decide)).trans h3, (W3_of_ne m ρ c main_arg6 (by decide)).trans h6⟩

theorem v14_eq : W3 m ρ c (Proc.devRef .tc main_v14) = dense (relu (s1 m c : S100000x128.Idx → EReal)) (m ((c : Thread nD τ).loc main_arg5)) := by
  obtain ⟨-, -, -, h5, -⟩ := kept2 m ρ c
  exact (W3_arr m ρ c 2).trans ((final1 (V2 m ρ) c).trans
    (congrArg₂ (fun (a : S100000x128.Idx → EReal) (b : S128x128.Idx → EReal) => dense (relu a) b) (v13_eq m ρ c) h5))

/-! ## After the second host stretch -/

theorem kept4 : W4 m ρ c (Proc.devRef .tc main_arg1) = m ((c : Thread nD τ).loc main_arg1)
    ∧ W4 m ρ c (Proc.devRef .tc main_arg2) = m ((c : Thread nD τ).loc main_arg2)
    ∧ W4 m ρ c (Proc.devRef .tc main_arg3) = m ((c : Thread nD τ).loc main_arg3)
    ∧ W4 m ρ c (Proc.devRef .tc main_arg6) = m ((c : Thread nD τ).loc main_arg6) := by
  obtain ⟨h1, h2, h3, h6⟩ := kept3 m ρ c
  obtain ⟨k1, k2, k3, k6⟩ := host2_keep (W3 m ρ c)
  exact ⟨k1.trans h1, k2.trans h2, k3.trans h3, k6.trans h6⟩

theorem v27_eq : W4 m ρ c (Proc.devRef .tc main_v27) = s2 m c := by
  obtain ⟨h1, h2, h3, -⟩ := kept3 m ρ c
  exact (host2_out (W3 m ρ c)).trans (spmm_congr h1 h2 h3 (v14_eq m ρ c))

/-! ## After the third call -/

theorem kept5 : W5 m ρ c (Proc.devRef .tc main_arg1) = m ((c : Thread nD τ).loc main_arg1)
    ∧ W5 m ρ c (Proc.devRef .tc main_arg2) = m ((c : Thread nD τ).loc main_arg2)
    ∧ W5 m ρ c (Proc.devRef .tc main_arg3) = m ((c : Thread nD τ).loc main_arg3) := by
  obtain ⟨h1, h2, h3, -⟩ := kept4 m ρ c
  exact ⟨(W5_of_ne m ρ c main_arg1 (by decide)).trans h1, (W5_of_ne m ρ c main_arg2 (by decide)).trans h2,
    (W5_of_ne m ρ c main_arg3 (by decide)).trans h3⟩

theorem v28_eq : W5 m ρ c (Proc.devRef .tc main_v28) = dense (relu (s2 m c : S100000x128.Idx → EReal)) (m ((c : Thread nD τ).loc main_arg6)) := by
  obtain ⟨-, -, -, h6⟩ := kept4 m ρ c
  exact (W5_arr m ρ c 2).trans ((final2 (V4 m ρ) c).trans
    (congrArg₂ (fun (a : S100000x128.Idx → EReal) (b : S128x128.Idx → EReal) => dense (relu a) b) (v27_eq m ρ c) h6))

/-! ## After the third host stretch, and the last call -/

theorem v41_eq : W6 m ρ c (Proc.devRef .tc main_v41) = s3 m c := by
  obtain ⟨h1, h2, h3⟩ := kept5 m ρ c
  exact (host3_out (W5 m ρ c)).trans (spmm_congr h1 h2 h3 (v28_eq m ρ c))

/-- The result buffer at the last segment boundary holds the network's result. -/
theorem v42_eq : W7 m ρ c (Proc.devRef .tc main_v42) = result m c :=
  (W7_arr m ρ c 1).trans ((final3 (V6 m ρ) c).trans
    (congrArg (fun a : S100000x128.Idx → EReal => relu a) (v41_eq m ρ c)))

/-- The run: the result buffer ends at the network's result, the arguments as launched. -/
theorem run_value : θ_run defs (onTc (τ := τ) (main (F := Ideal))) ⟨m, fun _ => 0, ρ⟩ (fun r => ∀ c : Dev nD,
      r.2.mem ((c.tc : Thread nD τ).loc main_v42) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (v42_eq m ρ c), (h c).2⟩) (run_out m ρ)

end Cert.KernelIdeal.Hand

end
-- ==== Proof.RefValue.lean ====
import proofs.«114177_j90031104459405_1_alg».proof.Proof.Gen.ReferenceIdeal.Run
import proofs.«114177_j90031104459405_1_alg».proof.Proof.Spec
import proofs.«114177_j90031104459405_1_alg».proof.Proof.Edges

/-!
# The reference computes the same network

The reference is sixty host operations: three times a `dot_general` with a weight matrix, the edge stage, and a
`maximum` with an array of zeros. Its `dot_general` is `dense`, its `maximum` with zeros is `relu`, and its edge stage
is, operation for operation, the one between the kernel's calls; so its result is the same composition of the same
functions of the arguments.
-/

set_option maxRecDepth 16384

noncomputable section

namespace Cert.ReferenceIdeal.RefValue

open Cert.ReferenceIdeal Cert.ReferenceIdeal.Gen Cert.Gnn Idealize.ShloMosaic Idealize.ShloMosaic.TcCoe Idealize.SL.Sem
open Cert.KernelIdeal.Hand (spmm)

/-- The reference's product has the plain dimension numbers. -/
theorem plainRef : LibPlainDot.Plain dot_S100000x128_S128x128_S100000x128_1_0_0_1_n_n := ⟨rfl, rfl, rfl, rfl, rfl, rfl⟩

/-- The composed term of the reference's run is the network of `dense`, `relu` and the edge stage. -/
theorem ref_eq (x : FVec Ideal S100000x128 .f32) (er ec : IVec S1600000 32) (ew : FVec Ideal S1600000 .f32) (w1 w2 w3 : FVec Ideal S128x128 .f32) :
    maximumf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 er) (mulf (broadcastInDim S1600000x128 ![0, 1] bcast_S1600000x1_S1600000x128_0_1 (broadcastInDim S1600000x1 ![0] bcast_S1600000_S1600000x1_0 ew)) (Host.gather gather_S100000x128_S1600000x1_S1600000x128_1_0_n_n_0_1_1128 (Host.dotGeneral dot_S100000x128_S128x128_S100000x128_1_0_0_1_n_n none (maximumf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 er) (mulf (broadcastInDim S1600000x128 ![0, 1] bcast_S1600000x1_S1600000x128_0_1 (broadcastInDim S1600000x1 ![0] bcast_S1600000_S1600000x1_0 ew)) (Host.gather gather_S100000x128_S1600000x1_S1600000x128_1_0_n_n_0_1_1128 (Host.dotGeneral dot_S100000x128_S128x128_S100000x128_1_0_0_1_n_n none (maximumf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 er) (mulf (broadcastInDim S1600000x128 ![0, 1] bcast_S1600000x1_S1600000x128_0_1 (broadcastInDim S1600000x1 ![0] bcast_S1600000_S1600000x1_0 ew)) (Host.gather gather_S100000x128_S1600000x1_S1600000x128_1_0_n_n_0_1_1128 (Host.dotGeneral dot_S100000x128_S128x128_S100000x128_1_0_0_1_n_n none x w1) (broadcastInDim S1600000x1 ![0] bcast_S1600000_S1600000x1_0 (select (cmpi .slt ec (broadcastInDim S1600000 ![] bcast_S_S1600000 (constantI S_ 32 0#32))) (addi ec (broadcastInDim S1600000 ![] bcast_S_S1600000 (constantI S_ 32 100000#32))) ec))))) (broadcastInDim S100000x128 ![] bcast_S_S100000x128 (constant (F := Ideal) S_ .f32 0x00000000#32))) w2) (broadcastInDim S1600000x1 ![0] bcast_S1600000_S1600000x1_0 (select (cmpi .slt ec (broadcastInDim S1600000 ![] bcast_S_S1600000 (constantI S_ 32 0#32))) (addi ec (broadcastInDim S1600000 ![] bcast_S_S1600000 (constantI S_ 32 100000#32))) ec))))) (broadcastInDim S100000x128 ![] bcast_S_S100000x128 (constant (F := Ideal) S_ .f32 0x00000000#32))) w3) (broadcastInDim S1600000x1 ![0] bcast_S1600000_S1600000x1_0 (select (cmpi .slt ec (broadcastInDim S1600000 ![] bcast_S_S1600000 (constantI S_ 32 0#32))) (addi ec (broadcastInDim S1600000 ![] bcast_S_S1600000 (constantI S_ 32 100000#32))) ec))))) (broadcastInDim S100000x128 ![] bcast_S_S100000x128 (constant (F := Ideal) S_ .f32 0x00000000#32))
    = relu (spmm er ec ew (dense (relu (spmm er ec ew (dense (relu (spmm er ec ew (dense x w1))) w2))) w3)) := by
  simp only [hostDot_eq _ plainRef, hostMax_eq]
  rfl

end Cert.ReferenceIdeal.RefValue

end
-- ==== Proof.lean ====
/- The claims of the three-layer graph network: frames, idealization, and equal results at the ideal instance.

   The kernel program is four kernel calls (three tiled products with a weight matrix, the second and third
   rectifying their input first, and a tiled rectifier) with the edge stage on the host between them; the reference
   is the same network as sixty host operations. The frames of the two kernel programs are the generated ones; the
   reference's frame is its generated run with the result dropped; no operation was rewritten by the idealization.
   For the results: the kernel program's result buffer ends at
   `relu (spmm (dense (relu (spmm (dense (relu (spmm (dense x w1))) w2))) w3))` of the launch memory's arguments
   (Proof/KernelValue.lean, over the tile lemmas of Proof/Region0 … Region3 and the host stretches of Proof/Edges),
   and the reference's composed term is that same function (Proof/RefValue.lean): a tiled product into a zero
   accumulator and a whole `dot_general` have the same entries `∑ k, X (p, k) · W (k, q)`, a maximum with zero is a
   maximum with zero, and the edge stage is shared. No law of the extended reals is used beyond that, and the
   precondition is not opened. -/
import proofs.«114177_j90031104459405_1_alg».proof.Defs
import proofs.«114177_j90031104459405_1_alg».proof.Proof.Gen.Kernel
import proofs.«114177_j90031104459405_1_alg».proof.Proof.Gen.Kernel.Frame
import proofs.«114177_j90031104459405_1_alg».proof.Proof.Gen.KernelIdeal
import proofs.«114177_j90031104459405_1_alg».proof.Proof.Gen.KernelIdeal.Frame
import proofs.«114177_j90031104459405_1_alg».proof.Proof.Gen.ReferenceIdeal
import proofs.«114177_j90031104459405_1_alg».proof.Proof.Gen.ReferenceIdeal.Run
import proofs.«114177_j90031104459405_1_alg».proof.Proof.Gen.Pre_finite_inputs
import proofs.«114177_j90031104459405_1_alg».proof.Proof.KernelValue
import proofs.«114177_j90031104459405_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network's result of the arguments they agree on. -/
theorem algebraic : Cert.algebraic_KernelIdeal_ReferenceIdeal := by
  intro m ρ m' ρ' _ hagree
  refine ⟨fun c => Cert.KernelIdeal.Hand.result m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact Cert.ReferenceIdeal.RefValue.ref_eq _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
